-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x33554432 : Shape := ⟨2, ![2, 33554432]⟩
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : IVec S2x33554432 32) (main_arg1 : FVec F S33554432 .f32) (main_arg2 : IVec S33554432 1) : IVec S_ 1 :=
  let main_v0 : FVec F S33554432 .f32 := Host.absf main_arg1
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  main_v3
-- ==== Kernel.lean ====
abbrev S2x33554432 : Shape := ⟨2, ![2, 33554432]⟩
abbrev S33554432 : Shape := ⟨1, ![33554432]⟩
abbrev S262144x128 : Shape := ⟨2, ![262144, 128]⟩
abbrev S16384x128 : Shape := ⟨2, ![16384, 128]⟩

abbrev nBuf : Space → Nat
  | .hbm => 8
  | .vmem => 6
  | .smem => 0
  | _ => 0

abbrev bufTy : (tb : Table) → Fin (tcTables nBuf tb) → BufTy
  | .hbm, ⟨0, _⟩ => ⟨S2x33554432, .i32⟩
  | .hbm, ⟨1, _⟩ => ⟨S33554432, .f32⟩
  | .hbm, ⟨2, _⟩ => ⟨S33554432, .i1⟩
  | .hbm, ⟨3, _⟩ => ⟨S262144x128, .f32⟩
  | .hbm, ⟨4, _⟩ => ⟨S262144x128, .i1⟩
  | .hbm, ⟨5, _⟩ => ⟨S262144x128, .i32⟩
  | .hbm, ⟨6, _⟩ => ⟨S262144x128, .f32⟩
  | .hbm, ⟨7, _⟩ => ⟨S33554432, .f32⟩
  | .local _ .vmem, ⟨0, _⟩ => ⟨S16384x128, .f32⟩
  | .local _ .vmem, ⟨1, _⟩ => ⟨S16384x128, .f32⟩
  | .local _ .vmem, ⟨2, _⟩ => ⟨S16384x128, .i32⟩
  | .local _ .vmem, ⟨3, _⟩ => ⟨S16384x128, .i32⟩
  | .local _ .vmem, ⟨4, _⟩ => ⟨S16384x128, .f32⟩
  | .local _ .vmem, ⟨5, _⟩ => ⟨S16384x128, .f32⟩
  | _, _ => ⟨S2x33554432, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S33554432_S262144x128 : S33554432.ShapeCasts S262144x128
  natLt_1_32 : 1 < 32
  inb_S16384x128_S16384x128_0_0 : ∀ a, (![0, 0] : Fin 2 → Nat) a + S16384x128.size a ≤ S16384x128.size a
  h_S16384x128 : 0 < S16384x128.numel
  shapeCasts_S16384x128_S16384x128 : S16384x128.ShapeCasts S16384x128
  shapeCasts_S262144x128_S33554432 : S262144x128.ShapeCasts S33554432
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x128.size a ≤ S262144x128.size a
  hwx0_0 : ∀ i : grid0.Coords, EltTy.bits .f32 = 32 ∨ (Rect.block (s := S262144x128) S16384x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S262144x128.size a
  hwx0_1 : ∀ i : grid0.Coords, EltTy.bits .i32 = 32 ∨ (Rect.block (s := S262144x128) S16384x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x128.size a ≤ S262144x128.size a
  hwx0_2 : ∀ i : grid0.Coords, EltTy.bits .f32 = 32 ∨ (Rect.block (s := S262144x128) S16384x128.size (cc0_transform_2 i) (hinb0_2 i)).WholeWords (EltTy.packing .f32)

variable [Facts₀]

abbrev win0_0 : Pipeline.Window sig grid0 :=
  Pipeline.Window.ofSpec (Memref.whole main_v0) S16384x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16384x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16384x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S2x33554432 : Shape := ⟨2, ![2, 33554432]⟩
abbrev S33554432 : Shape := ⟨1, ![33554432]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2x33554432, .i32⟩
  | .hbm, ⟨1, _⟩ => ⟨S33554432, .f32⟩
  | .hbm, ⟨2, _⟩ => ⟨S33554432, .i1⟩
  | .hbm, ⟨3, _⟩ => ⟨S_, .f32⟩
  | .hbm, ⟨4, _⟩ => ⟨S33554432, .f32⟩
  | .hbm, ⟨5, _⟩ => ⟨S33554432, .f32⟩
  | .hbm, ⟨6, _⟩ => ⟨S_, .f32⟩
  | .hbm, ⟨7, _⟩ => ⟨S33554432, .f32⟩
  | .hbm, ⟨8, _⟩ => ⟨S33554432, .f32⟩
  | _, _ => ⟨S2x33554432, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_v2 : Ref sig .tc := ⟨.hbm, 8, rfl⟩

abbrev nD : Nat := 1
abbrev τ : Topo := Topo.v7x

variable {F : FTy → Type} [FloatOps F]

class Facts₀ : Prop where
  bcast_S_S33554432 : S_.BroadcastsInDim S33554432 (![] : Fin 0 → Fin S33554432.rank)

variable [Facts₀]

class Facts : Prop extends Facts₀ where

variable [Facts]
-- ==== Proof.Spec.lean ====
/-
  Masked rescaling of a vector of edge values. Entry `i` of the result is `x i · c` where the keep-bit `b i`
  is one, and zero where it is zero; `c` is the single-precision word 0x3F9FFF7D (1.24998438, the rounding of
  1 / (1 − 0.2 + 1e−5)). Both programs compute this function entry by entry, with the same word `c` and the
  product in the same order, so the two results are one term: no finiteness of the inputs, no commutativity
  and no other law of the extended reals is used.

  The kernel works on the vector re-laid as 262144 rows of 128 lanes, and on the keep-bits widened to 32-bit
  words; the two facts that remove these differences are here: re-laying commutes with an entrywise map, and
  a bit widened with zeros is non-zero exactly when the bit is one.
-/
import Idealize.ShloMosaic.PureOps.Ideal
import Idealize.ShloMosaic.Lib.ValueIdx

noncomputable section

namespace Cert.MaskScale

open Idealize.ShloMosaic

variable {F : FTy → Type} [FloatOps F]

/-- One entry: the value times `c` when the keep-bit is one, zero otherwise. -/
def entry (x : F .f32) (b : BitVec 1) : F .f32 :=
  Scalar.select b (FloatOps.mulf x (FloatOps.ofBits .f32 0x3F9FFF7D#32)) (FloatOps.ofBits .f32 0x00000000#32)

/-- The whole array, at any shape: entry by entry. -/
def maskScale {s : Shape} (x : FVec F s .f32) (b : IVec s 1) : FVec F s .f32 :=
  fun i => entry (x i) (b i)

theorem maskScale_apply {s : Shape} (x : FVec F s .f32) (b : IVec s 1) (i : s.Idx) :
    maskScale x b i = entry (x i) (b i) := rfl

/-- Re-laying an array in row-major order under another shape commutes with an entrywise map: the entry at
    a position is computed from the operands' entries at the same position. -/
theorem shapeCast_maskScale {s t : Shape} (x : FVec F s .f32) (b : IVec s 1) (h : s.ShapeCasts t) :
    shapeCast t (maskScale x b) h = maskScale (shapeCast t x h) (shapeCast t b h) := rfl

/-- A bit widened with zeros to a 32-bit word differs from the zero word exactly when the bit is one. -/
theorem ne_zero_setWidth (b : BitVec 1) : IntOp.cmpi .ne (b.setWidth 32) 0#32 = b := by
  by_cases h : b = 1#1
  · subst h; decide
  · have h0 := ValueIdx.eq_zero_of_ne_one h; subst h0; decide

end Cert.MaskScale

end
-- ==== Proof.RefValue.lean ====
/-
  The reference computes the masked rescaling directly on the flat vector: it multiplies the values by the
  constant `c` spread over the vector, and selects, by the keep-bit, between that product and the constant
  zero spread over the vector. Read at an entry `i`, each spread constant is its one word, so the entry is
  `select (b i) (x i · c) 0`: the specification's entry, term for term.
-/
import proofs.«108591_j19739669692444_2_alg».proof.Proof.Gen.ReferenceIdeal.Read
import proofs.«108591_j19739669692444_2_alg».proof.Proof.Spec

noncomputable section

namespace Cert.MaskScale.Reference

open Idealize.ShloMosaic Cert.ReferenceIdeal Cert.ReferenceIdeal.Read Cert.MaskScale

variable {F : FTy → Type} [FloatOps F]

/-- The reference's last stage, as a function of the values and the keep-bits, is the masked rescaling. -/
theorem result_eq (x : FVec F S33554432 .f32) (b : IVec S33554432 1) :
    val_main_v2 (F := F) x b = maskScale x b := by
  funext i
  rw [val_main_v2_apply, val_main_v1_apply, val_main_v0_apply, val_main_call0_v0_apply, val_main_cst_apply,
    val_main_cst_0_apply]
  rfl

end Cert.MaskScale.Reference

end
-- ==== Proof.Payload.lean ====
/-
  What the kernel body stores, as a function of the two blocks it loads (16384 rows of 128 lanes of values,
  and as many 32-bit words carrying the keep-bits): it compares each word with zero, multiplies each value by
  the constant `c` spread over the block, and selects between the product and zero spread over the block.
  The two shape casts in the body are to the block's own shape, so they are the identity. Entry by entry this
  is the masked rescaling of the block, the keep-bit of an entry being "its word is not zero".
-/
import proofs.«108591_j19739669692444_2_alg».proof.Proof.Gen.KernelIdeal.Skeleton
import proofs.«108591_j19739669692444_2_alg».proof.Proof.Spec
import Idealize.ShloMosaic.Lib.Pipeline.Value

noncomputable section

namespace Cert.MaskScale.Kernel

open Idealize.ShloMosaic Cert.KernelIdeal Cert.KernelIdeal.Gen Cert.MaskScale

variable {F : FTy → Type} [FloatOps F]

/-- The keep-bits the body derives from 32-bit words: one where the word is not zero. -/
def keepBits {s : Shape} (w : IVec s 32) : IVec s 1 := fun j => IntOp.cmpi .ne (w j) 0#32

theorem keepBits_apply {s : Shape} (w : IVec s 32) (j : s.Idx) : keepBits w j = IntOp.cmpi .ne (w j) 0#32 := rfl

/-- The stored block is the masked rescaling of the loaded values by the keep-bits of the loaded words. -/
theorem payload_eq (v : Vec F S16384x128 .f32) (w : Vec F S16384x128 .i32) :
    k0_pay1 v w = maskScale v (keepBits w) := by
  unfold k0_pay1
  simp only [shapeCast_self]
  rfl

end Cert.MaskScale.Kernel

end
-- ==== Proof.Blocks.lean ====
/-
  From blocks to the array. The kernel's grid has 16 points; at point `t` each of its three windows (values,
  keep-words, result) is block `t` of its array: rows `16384 · t` to `16384 · t + 16383`, all 128 lanes. So the
  two input blocks at a point sit exactly where the output block sits, what the point writes back is the
  output block of ONE function of the two input arrays — their masked rescaling, entry by entry —, and, the
  16 row blocks tiling the 262144 rows, the result array after the region is that function everywhere.
-/
import proofs.«108591_j19739669692444_2_alg».proof.Proof.Gen.KernelIdeal.Frame
import proofs.«108591_j19739669692444_2_alg».proof.Proof.Payload
import Idealize.ShloMosaic.Lib.Pipeline.Value

noncomputable section

namespace Cert.MaskScale.Kernel

open Idealize.ShloMosaic Idealize.ShloMosaic.TcCoe Idealize.SL.Sem
open Cert.KernelIdeal Cert.KernelIdeal.Gen Cert.MaskScale

variable {F : FTy → Type} [FloatOps F]
variable (m : (ℓ : Loc nD τ sig) → Buf (Elt F) ℓ)

/-- The body's loads and its store start at row 0, lane 0 of their blocks. -/
theorem zero_offsets : (![0, 0] : Fin 2 → Nat) = fun _ => 0 := funext fun a => by fin_cases a <;> rfl

/-- What the region leaves in the result array: the masked rescaling of the values array (262144 × 128) as the
    region finds it, by the keep-bits of the keep-words array as the region finds it. -/
def regionOut (c : Dev nD) : S262144x128.Idx → Elt F .f32 :=
  maskScale (s := S262144x128) (V m c main_v0) (keepBits (s := S262144x128) (V m c main_v2))

/-- At every point the three windows are on the same row block, the lane block is the only one, and the row
    block's number is at most 15. -/
theorem same_block : ∀ t : Fin cfg0.N,
    win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = win0_2.index t (1 : Fin 2)
    ∧ win0_2.index t (0 : Fin 2) ≤ 15 ∧ win0_2.index t (1 : Fin 2) = 0 :=
  (by decide +kernel : ∀ t : Fin grid0.N, _)

/-- Every one of the 16 row blocks is some point's. -/
theorem every_row_block : ∀ q : Fin 16, ∃ t : Fin cfg0.N, win0_2.index t = ![q.val, 0] :=
  (by decide +kernel : ∀ q : Fin 16, ∃ t : Fin grid0.N, win0_2.index t = ![q.val, 0])

/-- What point `t` writes back is block `t` of `regionOut`: the stored block is the masked rescaling of the two
    loaded blocks, and entry `j` of each loaded block is its array's entry at the place of entry `j` of the
    output block (row `16384 · t + j 0`, lane `j 1`). -/
theorem flushed_eq (c : Dev nD) (t : Fin cfg0.N) :
    (dats m 0 c).flushed 2 t = ((cfg0.win 2).blk t).view.read (Elt F) (regionOut m c) := by
  show (cfg0.win 2).cut (grid0.coords t) ((dats m 0 c).after 2 t) = _
  rw [after0_2]
  unfold out0_2
  rw [View.canon_unit_zero zero_offsets]
  simp only [View.ld_unit_zero (S := S16384x128) zero_offsets]
  rw [payload_eq]
  obtain ⟨e0, e1, e2, e3, -, -⟩ := same_block t
  funext j
  show entry (V m c main_v0 (((cfg0.win 0).blk t).view.emb j))
        (IntOp.cmpi .ne (V m c main_v2 (((cfg0.win 1).blk t).view.emb j)) 0#32)
      = entry (V m c main_v0 (((cfg0.win 2).blk t).view.emb j))
        (IntOp.cmpi .ne (V m c main_v2 (((cfg0.win 2).blk t).view.emb j)) 0#32)
  have h0 : ((cfg0.win 0).blk t).view.emb j = ((cfg0.win 2).blk t).view.emb j := by
    funext a; apply Fin.ext
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 16384 + 1 * (j 0).val = win0_2.index t (0 : Fin 2) * 16384 + 1 * (j 0).val; omega
    | ⟨1, _⟩ => show win0_1.index t (1 : Fin 2) * 128 + 1 * (j 1).val = win0_2.index t (1 : Fin 2) * 128 + 1 * (j 1).val; omega
  rw [h0, h1]

/-- An entry of the result array is in point `t`'s block iff its row and its lane are in the block's ranges. -/
theorem mem_blk (t : Fin cfg0.N) (i : S262144x128.Idx) :
    i ∈ ((cfg0.win 2).blk t).view.set ↔ ∀ a : Fin 2, win0_2.index t a * S16384x128.size a ≤ (i a).val
      ∧ (i a).val < win0_2.index t a * S16384x128.size a + S16384x128.size a := by
  show i ∈ ((View.whole main_v3).slice (win0_2.rect t)).set ↔ _
  rw [View.set_slice_whole, Rect.mem_set_unit]
  exact Iff.rfl

/-- Every entry of the result array is in the block of the point whose row block is `row / 16384`. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  obtain ⟨t, ht⟩ := every_row_block ⟨(i 0).val / 16384, by omega⟩
  have q0 : win0_2.index t (0 : Fin 2) = (i 0).val / 16384 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 16384 ≤ (i 0).val ∧ (i 0).val < win0_2.index t (0 : Fin 2) * 16384 + 16384; omega
  | ⟨1, _⟩ => show win0_2.index t (1 : Fin 2) * 128 ≤ (i 1).val ∧ (i 1).val < win0_2.index t (1 : Fin 2) * 128 + 128; omega

/-- The result array after the region is `regionOut`, everywhere. -/
theorem region_array (c : Dev nD) : (dats m 0 c).arrAt 2 cfg0.N = regionOut m c :=
  (dats m 0 c).arrAt_eq_of_cover 2 (regionOut m c) (fun t _ => flushed_eq m c t) covered

end Cert.MaskScale.Kernel

end
-- ==== Proof.HostGlue.lean ====
/-
  The host operations around the region. Before it: the flat vector of values is re-laid as 262144 rows of
  128 lanes; the flat vector of keep-bits is re-laid the same way and each bit is widened with zeros to a
  32-bit word; the re-laid values are copied into the result's buffer. After it: the result array is re-laid
  as a flat vector again. Each array is read back here as that term of the launch contents; nothing is
  computed.
-/
import proofs.«108591_j19739669692444_2_alg».proof.Proof.Gen.KernelIdeal.Frame
import Idealize.ShloMosaic.Lib.StableHlo.Run

noncomputable section

namespace Cert.MaskScale.Kernel

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The values array as the region finds it: the flat values re-laid in rows of 128 lanes. -/
theorem values_in (c : Dev nD) :
    (V m c main_v0 : S262144x128.Idx → Elt F .f32)
      = shapeCast S262144x128 (m ((c : Thread nD τ).loc main_arg1)) shapeCasts_S33554432_S262144x128 := by
  show StableHlo.after hostOps0 (fun b => m (c, b)) (Proc.devRef .tc main_v0) = _
  after_results
  rfl

/-- The keep-words array as the region finds it: the flat keep-bits re-laid in rows of 128 lanes, each bit
    widened with zeros to 32 bits. -/
theorem words_in (c : Dev nD) :
    (V m c main_v2 : S262144x128.Idx → Elt F .i32)
      = extui 32 (shapeCast S262144x128 (m ((c : Thread nD τ).loc main_arg2)) shapeCasts_S33554432_S262144x128) natLt_1_32 := by
  show StableHlo.after hostOps0 (fun b => m (c, b)) (Proc.devRef .tc main_v2) = _
  after_results
  rfl

/-- The program's second result: the result array after the region, re-laid as a flat vector. -/
theorem tail_out (c : Dev nD) :
    Pipeline.afterTail₀ cfgs (dats m) 0 (V0 m) [hostOps1] c main_v4
      = shapeCast S33554432 ((dats m 0 c).arrAt 2 cfg0.N) shapeCasts_S262144x128_S33554432 := by
  unfold Pipeline.afterTail₀
  show StableHlo.after hostOps1 _ (Proc.devRef .tc main_v4) = _
  after_results
  rw [Pipeline.withArrays_arr spec0 launch0.win.arr_inj c _ _ 2]
  rfl

end Cert.MaskScale.Kernel

end
-- ==== Proof.KernelValue.lean ====
/-
  The kernel program's run, with its second result named. The region leaves the masked rescaling of the two
  arrays it finds (Blocks); those arrays are the flat arguments re-laid in rows of 128 lanes, the keep-bits
  widened to words (HostGlue); the program's result is the region's array re-laid flat again. An entrywise
  map commutes with re-laying, re-laying there and back is the identity, and "the widened bit is not zero" is
  the bit: so the result is the masked rescaling of the flat arguments, entry by entry.
-/
import proofs.«108591_j19739669692444_2_alg».proof.Proof.Blocks
import proofs.«108591_j19739669692444_2_alg».proof.Proof.HostGlue

noncomputable section

namespace Cert.MaskScale.Kernel

open Idealize.ShloMosaic Idealize.ShloMosaic.TcCoe Idealize.SL.Sem
open Cert.KernelIdeal Cert.KernelIdeal.Gen Cert.MaskScale

variable {F : FTy → Type} [FloatOps F]

/-- The keep-bits derived from bits widened to words are the bits themselves. -/
theorem keepBits_extui {s : Shape} (b : IVec s 1) (h : 1 < 32) : keepBits (extui 32 b h) = b :=
  funext fun j => ne_zero_setWidth (b j)

/-- Deriving keep-bits from words commutes with re-laying. -/
theorem shapeCast_keepBits {s t : Shape} (w : IVec s 32) (h : s.ShapeCasts t) :
    shapeCast t (keepBits w) h = keepBits (shapeCast t w h) := rfl

/-- Widening bits to words commutes with re-laying. -/
theorem shapeCast_extui {s t : Shape} (b : IVec s 1) (hw : 1 < 32) (h : s.ShapeCasts t) :
    shapeCast t (extui 32 b hw) h = extui 32 (shapeCast t b h) hw := rfl

variable (m : (ℓ : Loc nD τ sig) → Buf (Elt F) ℓ)

/-- The program's second result is the masked rescaling of the flat values by the flat keep-bits. -/
theorem result_value (c : Dev nD) :
    Pipeline.afterTail₀ cfgs (dats m) 0 (V0 m) [hostOps1] c main_v4
      = maskScale (s := S33554432) (m ((c : Thread nD τ).loc main_arg1)) (m ((c : Thread nD τ).loc main_arg2)) := by
  rw [tail_out, region_array]
  unfold regionOut
  rw [values_in, words_in, shapeCast_maskScale, shapeCast_keepBits, shapeCast_extui, keepBits_extui]
  exact congrArg₂ (maskScale (s := S33554432)) (shapeCast_shapeCast _ _ _) (shapeCast_shapeCast _ _ _)

/-- Every weakly fair execution of the kernel program terminates without a fault, with the first result the
    index argument as launched, the second the masked rescaling of the other two arguments, and the three
    arguments unchanged. -/
theorem run (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v4)
          = maskScale (s := S33554432) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_arg0 (Pipeline.mem_restRefs_of main_arg0 (by decide) (by decide))).trans (W_main_arg0 m (dats m) c),
      ((h c).2 main_v4 (Pipeline.mem_restRefs_of main_v4 (by decide) (by decide))).trans (result_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.MaskScale.Kernel

end
-- ==== Proof.lean ====
/-
  Edge values masked and rescaled: result entry `i` is `x i · c` where the keep-bit `b i` is one and zero where
  it is zero, `c` the single-precision word 0x3F9FFF7D; the index array is returned as given. The kernel
  program re-lays the values and the keep-bits as 262144 rows of 128 lanes, widens each keep-bit to a 32-bit
  word, runs a 16-point grid whose point `t` rewrites rows `16384 · t … 16384 · t + 16383` from the same rows of
  its two inputs (the body turns a word back into a bit by comparing it with zero), and re-lays the result
  flat. The reference selects on the flat vector directly. Over the extended reals both second results are
  the same term of the arguments, entry by entry (Proof/Spec.lean states it; Proof/RefValue.lean reads the
  reference; Proof/Payload.lean, Proof/Blocks.lean, Proof/HostGlue.lean and Proof/KernelValue.lean read the
  kernel program), with the same word `c` and the product in the same order: the precondition that the values
  are finite is not used. The idealized kernel is the kernel's own text read over the extended reals: no
  rewrite was applied, so there is nothing to preserve.
-/
import proofs.«108591_j19739669692444_2_alg».proof.Defs
import proofs.«108591_j19739669692444_2_alg».proof.Proof.Gen.Kernel
import proofs.«108591_j19739669692444_2_alg».proof.Proof.Gen.Kernel.Skeleton
import proofs.«108591_j19739669692444_2_alg».proof.Proof.Gen.Kernel.Launch
import proofs.«108591_j19739669692444_2_alg».proof.Proof.Gen.Kernel.Points
import proofs.«108591_j19739669692444_2_alg».proof.Proof.Gen.Kernel.Frame
import proofs.«108591_j19739669692444_2_alg».proof.Proof.Gen.KernelIdeal
import proofs.«108591_j19739669692444_2_alg».proof.Proof.Gen.KernelIdeal.Skeleton
import proofs.«108591_j19739669692444_2_alg».proof.Proof.Gen.KernelIdeal.Launch
import proofs.«108591_j19739669692444_2_alg».proof.Proof.Gen.KernelIdeal.Points
import proofs.«108591_j19739669692444_2_alg».proof.Proof.Gen.KernelIdeal.Frame
import proofs.«108591_j19739669692444_2_alg».proof.Proof.Gen.ReferenceIdeal
import proofs.«108591_j19739669692444_2_alg».proof.Proof.Gen.ReferenceIdeal.Run
import proofs.«108591_j19739669692444_2_alg».proof.Proof.Gen.ReferenceIdeal.Read
import proofs.«108591_j19739669692444_2_alg».proof.Proof.Gen.Pre_finite_inputs
import proofs.«108591_j19739669692444_2_alg».proof.Proof.RefValue
import proofs.«108591_j19739669692444_2_alg».proof.Proof.KernelValue
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does the same text read over the extended reals. -/
theorem frame_kernelIdeal : Cert.frame_KernelIdeal := fun m ρ _ => Cert.KernelIdeal.Gen.frame m ρ

/-- The reference runs and leaves its arguments unchanged: its run with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten when the kernel was read over the extended reals. -/
theorem preserves : Cert.preserves_Kernel_KernelIdeal := trivial

/-- From memories that agree on the three arguments both programs end with the index array as given and with
    the masked rescaling of the values by the keep-bits: the kernel program by its run with the result
    named, the reference by its run read entry by entry, the agreement carrying its arguments to the
    kernel's. -/
theorem algebraic : Cert.algebraic_KernelIdeal_ReferenceIdeal := by
  intro m ρ m' ρ' _ hagree
  refine ⟨_, _, Cert.MaskScale.Kernel.run (F := Ideal) m ρ, ?_⟩
  refine (θ_run Cert.ReferenceIdeal.defs _ _).mono (fun _ h c => ⟨(h c).1.trans (hagree c).1, ?_, (h c).2.2⟩)
    (Cert.ReferenceIdeal.Value.run (F := Ideal) m' ρ')
  rw [(h c).2.1, Cert.ReferenceIdeal.Read.val_main_v2_eq, Cert.MaskScale.Reference.result_eq, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
